-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256x128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000x128 .f32) (main_arg3 : FVec F S256x256 .f32) (main_arg4 : FVec F S256 .f32) (main_arg5 : FVec F S256x256 .f32) (main_arg6 : FVec F S256 .f32) (main_arg7 : FVec F S256x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S128x256 : Shape := ⟨2, ![128, 256]⟩
abbrev S1x256 : Shape := ⟨2, ![1, 256]⟩
abbrev S1x128 : Shape := ⟨2, ![1, 128]⟩
abbrev S2000x128 : Shape := ⟨2, ![2000, 128]⟩
abbrev S2000x1 : Shape := ⟨2, ![2000, 1]⟩
abbrev S2000x256 : Shape := ⟨2, ![2000, 256]⟩

abbrev nBuf : Space → Nat
  | .hbm => 38
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x128, .f32⟩
  | .hbm, ⟨13, _⟩ => ⟨S1600000x1, .i32⟩
  | .hbm, ⟨14, _⟩ => ⟨S100000x128, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S128x256, .f32⟩
  | .hbm, ⟨29, _⟩ => ⟨S128x256, .bf16⟩
  | .hbm, ⟨30, _⟩ => ⟨S128x256, .f32⟩
  | .hbm, ⟨31, _⟩ => ⟨S128x256, .bf16⟩
  | .hbm, ⟨32, _⟩ => ⟨S256x256, .bf16⟩
  | .hbm, ⟨33, _⟩ => ⟨S256x128, .bf16⟩
  | .hbm, ⟨34, _⟩ => ⟨S1x256, .f32⟩
  | .hbm, ⟨35, _⟩ => ⟨S1x256, .f32⟩
  | .hbm, ⟨36, _⟩ => ⟨S1x128, .f32⟩
  | .hbm, ⟨37, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .bf16⟩
  | .local _ .vmem, ⟨7, _⟩ => ⟨S128x256, .bf16⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S256x128, .bf16⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  shapeCasts_S100000_S100000x1 : S100000.ShapeCasts S100000x1
  slices_S256x256_S128x256_0_0 : S256x256.Slices ![0, 0] S128x256
  bitsLt_bf16_f32 : FTy.bits .bf16 < FTy.bits .f32
  slices_S256x256_S128x256_128_0 : S256x256.Slices ![128, 0] S128x256
  shapeCasts_S256_S1x256 : S256.ShapeCasts S1x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S100000x128.size a
  hwx0_10 : ∀ i : grid0.Coords, EltTy.bits .f32 = 32 ∨ (Rect.block (s := S100000x128) S2000x128.size (cc0_transform_10 i) (hinb0_10 i)).WholeWords (EltTy.packing .f32)

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x128, .f32⟩
  | .hbm, ⟨13, _⟩ => ⟨S1600000x1, .i32⟩
  | .hbm, ⟨14, _⟩ => ⟨S100000x128, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .f32⟩
  | .hbm, ⟨26, _⟩ => ⟨S100000x128, .f32⟩
  | .hbm, ⟨27, _⟩ => ⟨S100000x256, .f32⟩
  | .hbm, ⟨28, _⟩ => ⟨S100000x256, .f32⟩
  | .hbm, ⟨29, _⟩ => ⟨S1x256, .f32⟩
  | .hbm, ⟨30, _⟩ => ⟨S100000x256, .f32⟩
  | .hbm, ⟨31, _⟩ => ⟨S100000x256, .f32⟩
  | .hbm, ⟨32, _⟩ => ⟨S_, .f32⟩
  | .hbm, ⟨33, _⟩ => ⟨S100000x256, .f32⟩
  | .hbm, ⟨34, _⟩ => ⟨S100000x256, .f32⟩
  | .hbm, ⟨35, _⟩ => ⟨S100000x256, .f32⟩
  | .hbm, ⟨36, _⟩ => ⟨S1x256, .f32⟩
  | .hbm, ⟨37, _⟩ => ⟨S100000x256, .f32⟩
  | .hbm, ⟨38, _⟩ => ⟨S100000x256, .f32⟩
  | .hbm, ⟨39, _⟩ => ⟨S_, .f32⟩
  | .hbm, ⟨40, _⟩ => ⟨S100000x256, .f32⟩
  | .hbm, ⟨41, _⟩ => ⟨S100000x256, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.LibReciprocal.lean ====
/-
  Dividing by a number and multiplying by its reciprocal, on the extended reals.

  With the quotient that reads  x / y  as  x · y⁻¹  for every y other than zero (the inverse of an infinity being zero),
  multiplying by  1 / y  is dividing by  y : both are  x · y⁻¹ .  No finiteness of x or of y is needed, only y ≠ 0.  A
  divisor clamped from below by one, max d 1, is never zero.  The single-precision word 0x3F800000 denotes the number one.
  Mathlib and the ideal operations only.
-/
import Idealize.ShloMosaic.PureOps.Ideal
import Idealize.ShloMosaic.PureOps.Ideal.Laws

noncomputable section

namespace Cert.LibReciprocal

open Idealize.ShloMosaic

/-- The single-precision word of the number one denotes one. -/
theorem one_word : Ideal.ofBits .f32 0x3F800000#32 = (1 : EReal) := by
  simp [Ideal.ofBits, Ideal.ieee, -EReal.coe_mul]; norm_num

/-- Multiplying by the reciprocal of `y` is dividing by `y`, for every extended real `a` and every `y` other than zero
    (infinite `y` included: both sides are then `a * 0`). -/
theorem mul_recip (a y : EReal) (hy : y ≠ 0) : a * Ideal.div 1 y = Ideal.div a y := by
  unfold Ideal.div
  rw [if_neg hy, if_neg hy, one_mul]

/-- The same with the numerator spelt as the single-precision word of one. -/
theorem mul_recip_word (a y : EReal) (hy : y ≠ 0) :
    a * Ideal.div (Ideal.ofBits .f32 0x3F800000#32) y = Ideal.div a y := by
  rw [one_word, mul_recip a y hy]

/-- A maximum with the number one is not zero. -/
theorem max_one_ne_zero (d : EReal) : max d (Ideal.ofBits .f32 0x3F800000#32) ≠ 0 := by
  rw [one_word]
  have h : (0 : EReal) < max d 1 := lt_of_lt_of_le zero_lt_one (le_max_right d 1)
  exact ne_of_gt h

end Cert.LibReciprocal

end
-- ==== Proof.NodeRows.lean ====
/-
  The node update of a message-passing layer, as a function of one node's row.

  A node carries a feature row x (128 numbers) and the mean m of the edge features sent to it (128 numbers). The
  update pushes the joined row [x | m] (256 numbers) through three dense layers: 256 to 256 with a rectifier, 256 to 256
  with a rectifier, 256 to 128 without one. The first layer's weight W1 has 256 rows; its first 128 rows meet x and
  its last 128 rows meet m, so the inner product of [x | m] with a column of W1 is the inner product of x with the
  upper half of the column plus the inner product of m with the lower half: a sum over 256 positions is the sum over its
  two runs of 128. That identity holds in any commutative monoid, so it holds on the extended reals with no finiteness.

  The mean of node p is  sums p / max (count p) 1 .  A program that instead multiplies  sums p  by the reciprocal
  1 / max (count p) 1  computes the same extended real, because the divisor is never zero.
-/
import Idealize.ShloMosaic.PureOps.Ideal
import Idealize.ShloMosaic.PureOps.Ideal.Laws
import Idealize.ShloMosaic.Lib.ValueIdx
import proofs.«170694_j25134148616720_2_alg».proof.Proof.LibReciprocal

noncomputable section

namespace Cert.NodeRows

open Idealize.ShloMosaic Idealize.ShloMosaic.ValueIdx
open scoped BigOperators

/-- The extended real the single-precision zero word denotes (never evaluated: both programs spell it the same). -/
abbrev zeroW : EReal := Ideal.ofBits .f32 0x00000000#32
/-- The extended real the single-precision word of one denotes. -/
abbrev oneW : EReal := Ideal.ofBits .f32 0x3F800000#32

/-- Position d of the upper half of 256 positions. -/
def lo (d : Fin 128) : Fin 256 := ⟨d.val, by have := d.isLt; omega⟩
/-- Position d of the lower half of 256 positions. -/
def hi (d : Fin 128) : Fin 256 := ⟨128 + d.val, by have := d.isLt; omega⟩

/-- The first layer on one node: x against the weights wa, the mean against the weights wb, the bias, the rectifier. -/
def hidden1 (xr mr : Fin 128 → EReal) (wa wb : Fin 128 → Fin 256 → EReal) (c1 : Fin 256 → EReal) (f : Fin 256) : EReal :=
  max (((∑ d : Fin 128, xr d * wa d f) + ∑ d : Fin 128, mr d * wb d f) + c1 f) zeroW

/-- The second layer on one node. -/
def hidden2 (hr : Fin 256 → EReal) (w2 : Fin 256 → Fin 256 → EReal) (c2 : Fin 256 → EReal) (f : Fin 256) : EReal :=
  max ((∑ d : Fin 256, hr d * w2 d f) + c2 f) zeroW

/-- The last layer on one node: no rectifier. -/
def outRow (hr : Fin 256 → EReal) (w3 : Fin 256 → Fin 128 → EReal) (c3 : Fin 128 → EReal) (f : Fin 128) : EReal :=
  (∑ d : Fin 256, hr d * w3 d f) + c3 f

/-- The three layers in a row. -/
def net (xr mr : Fin 128 → EReal) (wa wb : Fin 128 → Fin 256 → EReal) (c1 : Fin 256 → EReal)
    (w2 : Fin 256 → Fin 256 → EReal) (c2 : Fin 256 → EReal) (w3 : Fin 256 → Fin 128 → EReal) (c3 : Fin 128 → EReal) :
    Fin 128 → EReal :=
  outRow (hidden2 (hidden1 xr mr wa wb c1) w2 c2) w3 c3

/-- A sum over 256 positions is the sum over the upper 128 plus the sum over the lower 128. -/
theorem sum_halves {M : Type*} [AddCommMonoid M] (g : Fin 256 → M) :
    ∑ k : Fin 256, g k = (∑ d : Fin 128, g (lo d)) + ∑ d : Fin 128, g (hi d) :=
  Fin.sum_univ_add (a := 128) (b := 128) g

/-- The mean of the edge features at one node and one feature: the sum divided by the count clamped from below by one. -/
def mean (s c : EReal) : EReal := Ideal.div s (max c oneW)

/-- Multiplying the sum by the reciprocal of the clamped count is dividing by it. -/
theorem mul_recip_count (s c : EReal) : s * Ideal.div oneW (max c oneW) = mean s c :=
  Cert.LibReciprocal.mul_recip_word s (max c oneW) (Cert.LibReciprocal.max_one_ne_zero c)

/-- THE UPDATE OF EVERY NODE: entry (p, f) of the result is the three layers applied to node p's row of x and node p's
    means, read at output feature f. The first layer's weight is used through its upper and lower halves. -/
def G (x sums : FVec Ideal ⟨2, ![100000, 128]⟩ .f32) (cnt : FVec Ideal ⟨1, ![100000]⟩ .f32)
    (W1 : FVec Ideal ⟨2, ![256, 256]⟩ .f32) (b1 : FVec Ideal ⟨1, ![256]⟩ .f32)
    (W2 : FVec Ideal ⟨2, ![256, 256]⟩ .f32) (b2 : FVec Ideal ⟨1, ![256]⟩ .f32)
    (W3 : FVec Ideal ⟨2, ![256, 128]⟩ .f32) (b3 : FVec Ideal ⟨1, ![128]⟩ .f32) : FVec Ideal ⟨2, ![100000, 128]⟩ .f32 :=
  fun i => net (fun d => x (ix2 (i 0) d)) (fun d => mean (sums (ix2 (i 0) d)) (cnt (ix1 (i 0))))
    (fun d f => W1 (ix2 (lo d) f)) (fun d f => W1 (ix2 (hi d) f)) (fun f => b1 (ix1 f))
    (fun d f => W2 (ix2 d f)) (fun f => b2 (ix1 f)) (fun d f => W3 (ix2 d f)) (fun f => b3 (ix1 f)) (i 1)

end Cert.NodeRows

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelRows.lean ====
/-
  One block of 2000 nodes through the three layers, read at an entry.

  The body of the kernel receives a block of 2000 rows of x, the same rows of the summed edge features and of the
  reciprocal counts (a column), and the whole weights and biases. Each of its three layers is a matrix product into a zero
  accumulator plus a bias row spread over the rows, the first two followed by a maximum with zero; the first layer adds
  two products, one of the x rows and one of the rows  sums * reciprocal count . Entry (r, f) of each layer reads row r of
  the layer's input only, so entry (r, f) of the block's result is the node update of row r read at f
  (Cert.NodeRows.net). Narrowing to bf16 and the casts of a shape to itself change nothing on the extended reals.
-/
import proofs.«170694_j25134148616720_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«170694_j25134148616720_2_alg».proof.Proof.NodeRows
import proofs.«170694_j25134148616720_2_alg».proof.Proof.LibInnerProducts
import proofs.«170694_j25134148616720_2_alg».proof.Proof.LibKeepdims

noncomputable section

namespace Cert.KernelIdeal.Rows

open Cert.KernelIdeal Cert.KernelIdeal.Gen Idealize.ShloMosaic Idealize.ShloMosaic.ValueIdx
open Idealize.ShloMosaic.InnerProducts Cert.NodeRows
open scoped BigOperators

/-- The first layer of a block: x rows against the upper weights, (sums * reciprocal) rows against the lower weights,
    the bias row, the rectifier. -/
def layer1K (x0 x1 : FVec Ideal S2000x128 .f32) (x2 : FVec Ideal S2000x1 .f32) (x3 x4 : FVec Ideal S128x256 .bf16)
    (x5 : FVec Ideal S1x256 .f32) : FVec Ideal S2000x256 .f32 :=
  maximumf (addf (addf
      (matmul dot_S2000x128_S128x256_S2000x256_1_0_0_1_n_n none (truncf .bf16 x0 bitsLt_bf16_f32)
        (shapeCast S128x256 x3 shapeCasts_S128x256_S128x256) (constant S2000x256 .f32 0x00000000#32))
      (matmul dot_S2000x128_S128x256_S2000x256_1_0_0_1_n_n none
        (truncf .bf16 (mulf (shapeCast S2000x128 x1 shapeCasts_S2000x128_S2000x128)
          (broadcastTo S2000x128 (shapeCast S2000x1 x2 shapeCasts_S2000x1_S2000x1) broadcasts_S2000x1_S2000x128)) bitsLt_bf16_f32)
        (shapeCast S128x256 x4 shapeCasts_S128x256_S128x256) (constant S2000x256 .f32 0x00000000#32)))
      (broadcastTo S2000x256 (shapeCast S1x256 x5 shapeCasts_S1x256_S1x256) broadcasts_S1x256_S2000x256))
    (broadcast S2000x256 (Scalar.ofBits .f32 0x00000000#32))

/-- The second layer of a block. -/
def layer2K (h : FVec Ideal S2000x256 .f32) (x6 : FVec Ideal S256x256 .bf16) (x7 : FVec Ideal S1x256 .f32) :
    FVec Ideal S2000x256 .f32 :=
  maximumf (addf
      (matmul dot_S2000x256_S256x256_S2000x256_1_0_0_1_n_n none (truncf .bf16 h bitsLt_bf16_f32)
        (shapeCast S256x256 x6 shapeCasts_S256x256_S256x256) (constant S2000x256 .f32 0x00000000#32))
      (broadcastTo S2000x256 (shapeCast S1x256 x7 shapeCasts_S1x256_S1x256) broadcasts_S1x256_S2000x256))
    (broadcast S2000x256 (Scalar.ofBits .f32 0x00000000#32))

/-- The last layer of a block. -/
def layer3K (h : FVec Ideal S2000x256 .f32) (x8 : FVec Ideal S256x128 .bf16) (x9 : FVec Ideal S1x128 .f32) :
    FVec Ideal S2000x128 .f32 :=
  addf (matmul dot_S2000x256_S256x128_S2000x128_1_0_0_1_n_n none (truncf .bf16 h bitsLt_bf16_f32)
      (shapeCast S256x128 x8 shapeCasts_S256x128_S256x128) (constant S2000x128 .f32 0x00000000#32))
    (broadcastTo S2000x128 (shapeCast S1x128 x9 shapeCasts_S1x128_S1x128) broadcasts_S1x128_S2000x128)

/-- The value the body stores is the three layers composed. -/
theorem payload_eq (x0 x1 : FVec Ideal S2000x128 .f32) (x2 : FVec Ideal S2000x1 .f32) (x3 x4 : FVec Ideal S128x256 .bf16)
    (x5 : FVec Ideal S1x256 .f32) (x6 : FVec Ideal S256x256 .bf16) (x7 : FVec Ideal S1x256 .f32)
    (x8 : FVec Ideal S256x128 .bf16) (x9 : FVec Ideal S1x128 .f32) :
    k0_pay1 (k0_pay2 x0 x1 x2 x3 x4 x5 x6 x7) (k0_pay3 x8) (constant S2000x128 .f32 0x00000000#32) x9
      = layer3K (layer2K (layer1K x0 x1 x2 x3 x4 x5) x6 x7) x8 x9 := rfl

/-- Entry (r, f) of the first layer of a block. -/
theorem layer1K_apply (x0 x1 : FVec Ideal S2000x128 .f32) (x2 : FVec Ideal S2000x1 .f32) (x3 x4 : FVec Ideal S128x256 .bf16)
    (x5 : FVec Ideal S1x256 .f32) (r : Fin 2000) (f : Fin 256) :
    layer1K x0 x1 x2 x3 x4 x5 (ix2 r f)
      = hidden1 (fun d => x0 (ix2 r d)) (fun d => x1 (ix2 r d) * x2 (ix2 r (0 : Fin 1)))
          (fun d g => x3 (ix2 d g)) (fun d g => x4 (ix2 d g)) (fun g => x5 (ix2 (0 : Fin 1) g)) f := by
  unfold layer1K hidden1
  rw [maximumf_apply, addf_apply, addf_apply,
    matmul_zero_apply dot_S2000x128_S128x256_S2000x256_1_0_0_1_n_n rfl none _ _ r f,
    matmul_zero_apply dot_S2000x128_S128x256_S2000x256_1_0_0_1_n_n rfl none _ _ r f,
    broadcastTo_1b_ab_apply _ broadcasts_S1x256_S2000x256 r f, broadcast_apply]
  simp only [truncf_apply, mulf_apply, shapeCast_self, Cert.LibKeepdims.broadcastTo_a1_ab_apply]
  rfl

/-- Entry (r, f) of the second layer of a block reads row r of its input. -/
theorem layer2K_apply (h : FVec Ideal S2000x256 .f32) (x6 : FVec Ideal S256x256 .bf16) (x7 : FVec Ideal S1x256 .f32)
    (r : Fin 2000) (f : Fin 256) :
    layer2K h x6 x7 (ix2 r f)
      = hidden2 (fun d => h (ix2 r d)) (fun d g => x6 (ix2 d g)) (fun g => x7 (ix2 (0 : Fin 1) g)) f := by
  unfold layer2K hidden2
  rw [maximumf_apply, addf_apply,
    matmul_zero_apply dot_S2000x256_S256x256_S2000x256_1_0_0_1_n_n rfl none _ _ r f,
    broadcastTo_1b_ab_apply _ broadcasts_S1x256_S2000x256 r f, broadcast_apply]
  simp only [truncf_apply, shapeCast_self]
  rfl

/-- Entry (r, f) of the last layer of a block reads row r of its input. -/
theorem layer3K_apply (h : FVec Ideal S2000x256 .f32) (x8 : FVec Ideal S256x128 .bf16) (x9 : FVec Ideal S1x128 .f32)
    (r : Fin 2000) (f : Fin 128) :
    layer3K h x8 x9 (ix2 r f)
      = outRow (fun d => h (ix2 r d)) (fun d g => x8 (ix2 d g)) (fun g => x9 (ix2 (0 : Fin 1) g)) f := by
  unfold layer3K outRow
  rw [addf_apply,
    matmul_zero_apply dot_S2000x256_S256x128_S2000x128_1_0_0_1_n_n rfl none _ _ r f,
    broadcastTo_1b_ab_apply _ broadcasts_S1x128_S2000x128 r f]
  simp only [truncf_apply, shapeCast_self]

/-- ENTRY (r, f) OF WHAT THE BODY STORES: the node update of row r of the block, read at f. -/
theorem payload_apply (x0 x1 : FVec Ideal S2000x128 .f32) (x2 : FVec Ideal S2000x1 .f32) (x3 x4 : FVec Ideal S128x256 .bf16)
    (x5 : FVec Ideal S1x256 .f32) (x6 : FVec Ideal S256x256 .bf16) (x7 : FVec Ideal S1x256 .f32)
    (x8 : FVec Ideal S256x128 .bf16) (x9 : FVec Ideal S1x128 .f32) (r : Fin 2000) (f : Fin 128) :
    k0_pay1 (F := Ideal) (k0_pay2 x0 x1 x2 x3 x4 x5 x6 x7) (k0_pay3 x8) (constant S2000x128 .f32 0x00000000#32) x9 (ix2 r f)
      = net (fun d => x0 (ix2 r d)) (fun d => x1 (ix2 r d) * x2 (ix2 r (0 : Fin 1)))
          (fun d g => x3 (ix2 d g)) (fun d g => x4 (ix2 d g)) (fun g => x5 (ix2 (0 : Fin 1) g))
          (fun d g => x6 (ix2 d g)) (fun g => x7 (ix2 (0 : Fin 1) g))
          (fun d g => x8 (ix2 d g)) (fun g => x9 (ix2 (0 : Fin 1) g)) f := by
  rw [payload_eq, layer3K_apply]
  unfold net
  congr 1
  funext d
  rw [layer2K_apply]
  congr 1
  funext e
  rw [layer1K_apply]

end Cert.KernelIdeal.Rows

end
-- ==== Proof.KernelBlocks.lean ====
/-
  From the blocks the grid writes to the whole result array.

  The grid has 50 points; point t works on rows 2000 t .. 2000 t + 1999 of x, of the summed edge features, of the
  reciprocal counts and of the result, and on the whole weights and biases (their one block is the whole array). The
  node update reads one row, so what point t writes back is rows 2000 t .. 2000 t + 1999 of ONE array, the node update
  of every node (windowNet below: the update as a function of the ten arrays the kernel call receives). The 50 blocks
  of 2000 rows cover the 100000 rows: row p is in block p / 2000. So the result array ends holding windowNet.
-/
import proofs.«170694_j25134148616720_2_alg».proof.Proof.Gen.KernelIdeal.Frame
import proofs.«170694_j25134148616720_2_alg».proof.Proof.Gen.KernelIdeal.Value
import Idealize.ShloMosaic.Lib.Pipeline.Value
import proofs.«170694_j25134148616720_2_alg».proof.Proof.KernelRows

set_option maxRecDepth 16384

noncomputable section

namespace Cert.KernelIdeal.Blocks

open Cert.KernelIdeal Cert.KernelIdeal.Gen Cert.KernelIdeal.Value Cert.KernelIdeal.Rows
open Idealize.ShloMosaic Idealize.ShloMosaic.TcCoe Idealize.SL.Sem Idealize.ShloMosaic.ValueIdx Cert.NodeRows
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The node update of every node as a function of the ten arrays the kernel call receives: x, the summed edge
    features, the reciprocal counts (a column), the two halves of the first weight, and the remaining weights and bias
    rows. Entry (p, f) reads row p of the first three. -/
def windowNet (a0 a1 : FVec Ideal S100000x128 .f32) (a2 : FVec Ideal S100000x1 .f32) (a3 a4 : FVec Ideal S128x256 .bf16)
    (a5 : FVec Ideal S1x256 .f32) (a6 : FVec Ideal S256x256 .bf16) (a7 : FVec Ideal S1x256 .f32)
    (a8 : FVec Ideal S256x128 .bf16) (a9 : FVec Ideal S1x128 .f32) : FVec Ideal S100000x128 .f32 :=
  fun i => net (fun d => a0 (ix2 (i 0) d)) (fun d => a1 (ix2 (i 0) d) * a2 (ix2 (i 0) (0 : Fin 1)))
    (fun d g => a3 (ix2 d g)) (fun d g => a4 (ix2 d g)) (fun g => a5 (ix2 (0 : Fin 1) g))
    (fun d g => a6 (ix2 d g)) (fun g => a7 (ix2 (0 : Fin 1) g))
    (fun d g => a8 (ix2 d g)) (fun g => a9 (ix2 (0 : Fin 1) g)) (i 1)

/-- What the body stores at block entry (r, f) is windowNet at array entry (p, f), when row r of the three row-blocked
    inputs is row p of their arrays and the other seven blocks are their whole arrays. -/
theorem stored_eq (a0 a1 : FVec Ideal S100000x128 .f32) (a2 : FVec Ideal S100000x1 .f32) (a3 a4 : FVec Ideal S128x256 .bf16)
    (a5 : FVec Ideal S1x256 .f32) (a6 : FVec Ideal S256x256 .bf16) (a7 : FVec Ideal S1x256 .f32)
    (a8 : FVec Ideal S256x128 .bf16) (a9 : FVec Ideal S1x128 .f32)
    (x0 x1 : FVec Ideal S2000x128 .f32) (x2 : FVec Ideal S2000x1 .f32) (x3 x4 : FVec Ideal S128x256 .bf16)
    (x5 : FVec Ideal S1x256 .f32) (x6 : FVec Ideal S256x256 .bf16) (x7 : FVec Ideal S1x256 .f32)
    (x8 : FVec Ideal S256x128 .bf16) (x9 : FVec Ideal S1x128 .f32)
    (r : Fin 2000) (f : Fin 128) (p : Fin 100000)
    (h0 : ∀ d : Fin 128, x0 (ix2 r d) = a0 (ix2 p d)) (h1 : ∀ d : Fin 128, x1 (ix2 r d) = a1 (ix2 p d))
    (h2 : x2 (ix2 r (0 : Fin 1)) = a2 (ix2 p (0 : Fin 1)))
    (h3 : x3 = a3) (h4 : x4 = a4) (h5 : x5 = a5) (h6 : x6 = a6) (h7 : x7 = a7) (h8 : x8 = a8) (h9 : x9 = a9) :
    k0_pay1 (F := Ideal) (k0_pay2 x0 x1 x2 x3 x4 x5 x6 x7) (k0_pay3 x8) (constant S2000x128 .f32 0x00000000#32) x9 (ix2 r f)
      = windowNet a0 a1 a2 a3 a4 a5 a6 a7 a8 a9 (ix2 p f) := by
  subst h3 h4 h5 h6 h7 h8 h9
  rw [payload_apply]
  show _ = net (fun d => a0 (ix2 p d)) (fun d => a1 (ix2 p d) * a2 (ix2 p (0 : Fin 1))) _ _ _ _ _ _ _ f
  rw [h2]
  simp only [h0, h1]

/-- The printed index maps over the 50 points: the three row-blocked inputs move with the output, block t of the output
    is block row t, and every other block index is zero. -/
theorem idx_facts : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row r of point t's block of a [100000, 128] array staged by window 0 is row 2000 t + r of the array. -/
theorem read0_apply (A : (⟨S100000x128, .f32⟩ : BufTy).Contents (Elt Ideal)) (t : Fin cfg0.N) (r : Fin 2000) (d : Fin 128) (p : Fin 100000)
    (hp : p.val = t.val * 2000 + r.val) :
    (((cfg0.win 0).blk t).view.read (Elt Ideal) A : Vec Ideal S2000x128 .f32) (ix2 r d) = A (ix2 p d) := by
  obtain ⟨-, -, e0, e1, -⟩ := idx_facts t
  rw [View.read_apply]
  show A _ = A _
  congr 1
  funext a
  apply Fin.ext
  match a with
  | ⟨0, _⟩ => show win0_0.index t (0 : Fin 2) * 2000 + 1 * r.val = p.val; rw [e0, hp]; omega
  | ⟨1, _⟩ => show win0_0.index t (1 : Fin 2) * 128 + 1 * d.val = d.val; rw [e1]; omega

/-- The same for window 1. -/
theorem read1_apply (A : (⟨S100000x128, .f32⟩ : BufTy).Contents (Elt Ideal)) (t : Fin cfg0.N) (r : Fin 2000) (d : Fin 128) (p : Fin 100000)
    (hp : p.val = t.val * 2000 + r.val) :
    (((cfg0.win 1).blk t).view.read (Elt Ideal) A : Vec Ideal S2000x128 .f32) (ix2 r d) = A (ix2 p d) := by
  obtain ⟨-, -, -, -, e0, e1, -⟩ := idx_facts t
  rw [View.read_apply]
  show A _ = A _
  congr 1
  funext a
  apply Fin.ext
  match a with
  | ⟨0, _⟩ => show win0_1.index t (0 : Fin 2) * 2000 + 1 * r.val = p.val; rw [e0, hp]; omega
  | ⟨1, _⟩ => show win0_1.index t (1 : Fin 2) * 128 + 1 * d.val = d.val; rw [e1]; omega

/-- Row r of point t's block of a [100000, 1] column staged by window 2 is row 2000 t + r of the column. -/
theorem read2_apply (A : (⟨S100000x1, .f32⟩ : BufTy).Contents (Elt Ideal)) (t : Fin cfg0.N) (r : Fin 2000) (d : Fin 1) (p : Fin 100000)
    (hp : p.val = t.val * 2000 + r.val) :
    (((cfg0.win 2).blk t).view.read (Elt Ideal) A : Vec Ideal S2000x1 .f32) (ix2 r d) = A (ix2 p d) := by
  obtain ⟨-, -, -, -, -, -, e0, e1, -⟩ := idx_facts t
  rw [View.read_apply]
  show A _ = A _
  congr 1
  funext a
  apply Fin.ext
  match a with
  | ⟨0, _⟩ => show win0_2.index t (0 : Fin 2) * 2000 + 1 * r.val = p.val; rw [e0, hp]; omega
  | ⟨1, _⟩ => show win0_2.index t (1 : Fin 2) * 1 + 1 * d.val = d.val; rw [e1]; omega

/-- Window 3's one block is its whole array. -/
theorem read3_eq (A : (⟨S128x256, .bf16⟩ : BufTy).Contents (Elt Ideal)) (t : Fin cfg0.N) :
    (((cfg0.win 3).blk t).view.read (Elt Ideal) A : Vec Ideal S128x256 .bf16) = A := by
  obtain ⟨-, -, -, -, -, -, -, -, e0, e1, -⟩ := idx_facts t
  funext x
  rw [View.read_apply]
  show A _ = A x
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 256 + 1 * (x 1).val = (x 1).val; rw [e1]; omega

/-- Window 4's one block is its whole array. -/
theorem read4_eq (A : (⟨S128x256, .bf16⟩ : BufTy).Contents (Elt Ideal)) (t : Fin cfg0.N) :
    (((cfg0.win 4).blk t).view.read (Elt Ideal) A : Vec Ideal S128x256 .bf16) = A := by
  obtain ⟨-, -, -, -, -, -, -, -, -, -, e0, e1, -⟩ := idx_facts t
  funext x
  rw [View.read_apply]
  show A _ = A x
  congr 1
  funext a
  apply Fin.ext
  match a with
  | ⟨0, _⟩ => show win0_4.index t (0 : Fin 2) * 128 + 1 * (x 0).val = (x 0).val; rw [e0]; omega
  | ⟨1, _⟩ => show win0_4.index t (1 : Fin 2) * 256 + 1 * (x 1).val = (x 1).val; rw [e1]; omega

/-- Window 5's one block is its whole array. -/
theorem read5_eq (A : (⟨S1x256, .f32⟩ : BufTy).Contents (Elt Ideal)) (t : Fin cfg0.N) :
    (((cfg0.win 5).blk t).view.read (Elt Ideal) A : Vec Ideal S1x256 .f32) = A := by
  obtain ⟨-, -, -, -, -, -, -, -, -, -, -, -, e0, e1, -⟩ := idx_facts t
  funext x
  rw [View.read_apply]
  show A _ = A x
  congr 1
  funext a
  apply Fin.ext
  match a with
  | ⟨0, _⟩ => show win0_5.index t (0 : Fin 2) * 1 + 1 * (x 0).val = (x 0).val; rw [e0]; omega
  | ⟨1, _⟩ => show win0_5.index t (1 : Fin 2) * 256 + 1 * (x 1).val = (x 1).val; rw [e1]; omega

/-- Window 6's one block is its whole array. -/
theorem read6_eq (A : (⟨S256x256, .bf16⟩ : BufTy).Contents (Elt Ideal)) (t : Fin cfg0.N) :
    (((cfg0.win 6).blk t).view.read (Elt Ideal) A : Vec Ideal S256x256 .bf16) = A := by
  obtain ⟨-, -, -, -, -, -, -, -, -, -, -, -, -, -, e0, e1, -⟩ := idx_facts t
  funext x
  rw [View.read_apply]
  show A _ = A x
  congr 1
  funext a
  apply Fin.ext
  match a with
  | ⟨0, _⟩ => show win0_6.index t (0 : Fin 2) * 256 + 1 * (x 0).val = (x 0).val; rw [e0]; omega
  | ⟨1, _⟩ => show win0_6.index t (1 : Fin 2) * 256 + 1 * (x 1).val = (x 1).val; rw [e1]; omega

/-- Window 7's one block is its whole array. -/
theorem read7_eq (A : (⟨S1x256, .f32⟩ : BufTy).Contents (Elt Ideal)) (t : Fin cfg0.N) :
    (((cfg0.win 7).blk t).view.read (Elt Ideal) A : Vec Ideal S1x256 .f32) = A := by
  obtain ⟨-, -, -, -, -, -, -, -, -, -, -, -, -, -, -, -, e0, e1, -⟩ := idx_facts t
  funext x
  rw [View.read_apply]
  show A _ = A x
  congr 1
  funext a
  apply Fin.ext
  match a with
  | ⟨0, _⟩ => show win0_7.index t (0 : Fin 2) * 1 + 1 * (x 0).val = (x 0).val; rw [e0]; omega
  | ⟨1, _⟩ => show win0_7.index t (1 : Fin 2) * 256 + 1 * (x 1).val = (x 1).val; rw [e1]; omega

/-- Window 8's one block is its whole array. -/
theorem read8_eq (A : (⟨S256x128, .bf16⟩ : BufTy).Contents (Elt Ideal)) (t : Fin cfg0.N) :
    (((cfg0.win 8).blk t).view.read (Elt Ideal) A : Vec Ideal S256x128 .bf16) = A := by
  obtain ⟨-, -, -, -, -, -, -, -, -, -, -, -, -, -, -, -, -, -, e0, e1, -⟩ := idx_facts t
  funext x
  rw [View.read_apply]
  show A _ = A x
  congr 1
  funext a
  apply Fin.ext
  match a with
  | ⟨0, _⟩ => show win0_8.index t (0 : Fin 2) * 256 + 1 * (x 0).val = (x 0).val; rw [e0]; omega
  | ⟨1, _⟩ => show win0_8.index t (1 : Fin 2) * 128 + 1 * (x 1).val = (x 1).val; rw [e1]; omega

/-- Window 9's one block is its whole array. -/
theorem read9_eq (A : (⟨S1x128, .f32⟩ : BufTy).Contents (Elt Ideal)) (t : Fin cfg0.N) :
    (((cfg0.win 9).blk t).view.read (Elt Ideal) A : Vec Ideal S1x128 .f32) = A := by
  obtain ⟨-, -, -, -, -, -, -, -, -, -, -, -, -, -, -, -, -, -, -, -, e0, e1⟩ := idx_facts t
  funext x
  rw [View.read_apply]
  show A _ = A x
  congr 1
  funext a
  apply Fin.ext
  match a with
  | ⟨0, _⟩ => show win0_9.index t (0 : Fin 2) * 1 + 1 * (x 0).val = (x 0).val; rw [e0]; omega
  | ⟨1, _⟩ => show win0_9.index t (1 : Fin 2) * 128 + 1 * (x 1).val = (x 1).val; rw [e1]; omega

/-- WHAT A POINT WRITES BACK, for ANY ten arrays staged by the ten input windows: the body's result on point t's blocks,
    read through the output window's block, is rows 2000 t .. 2000 t + 1999 of the node update of the ten arrays. -/
theorem block_of_net (A0 A1 : (⟨S100000x128, .f32⟩ : BufTy).Contents (Elt Ideal)) (A2 : (⟨S100000x1, .f32⟩ : BufTy).Contents (Elt Ideal))
    (A3 A4 : (⟨S128x256, .bf16⟩ : BufTy).Contents (Elt Ideal)) (A5 : (⟨S1x256, .f32⟩ : BufTy).Contents (Elt Ideal))
    (A6 : (⟨S256x256, .bf16⟩ : BufTy).Contents (Elt Ideal)) (A7 : (⟨S1x256, .f32⟩ : BufTy).Contents (Elt Ideal))
    (A8 : (⟨S256x128, .bf16⟩ : BufTy).Contents (Elt Ideal)) (A9 : (⟨S1x128, .f32⟩ : BufTy).Contents (Elt Ideal)) (t : Fin cfg0.N) :
    (cfg0.win 10).cut (grid0.coords t) (out0_10 (F := Ideal)
        (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5)
        (((cfg0.win 6).blk t).view.read (Elt Ideal) A6) (((cfg0.win 7).blk t).view.read (Elt Ideal) A7)
        (((cfg0.win 8).blk t).view.read (Elt Ideal) A8) (((cfg0.win 9).blk t).view.read (Elt Ideal) A9))
      = ((cfg0.win 10).blk t).view.read (Elt Ideal) (windowNet A0 A1 A2 A3 A4 A5 A6 A7 A8 A9) := by
  unfold out0_10
  rw [View.canon_unit_zero hz]
  simp only [View.ld_unit_zero (S := S2000x128) hz, View.ld_unit_zero (S := S2000x1) hz, View.ld_unit_zero (S := S128x256) hz,
    View.ld_unit_zero (S := S1x256) hz, View.ld_unit_zero (S := S256x256) hz, View.ld_unit_zero (S := S256x128) hz,
    View.ld_unit_zero (S := S1x128) hz]
  obtain ⟨e0, e1, -⟩ := idx_facts t
  have ht : t.val < 50 := lt_of_lt_of_eq t.isLt N_0
  funext y
  obtain ⟨r, f, rfl⟩ : ∃ (r : Fin 2000) (f : Fin 128), y = ix2 r f := ⟨y 0, y 1, eq_ix2 y⟩
  have hr : r.val < 2000 := r.isLt
  have hemb : ((cfg0.win 10).blk t).view.emb (ix2 r f) = ix2 (⟨t.val * 2000 + r.val, by omega⟩ : Fin 100000) f := by
    funext a
    apply Fin.ext
    match a with
    | ⟨0, _⟩ => show win0_10.index t (0 : Fin 2) * 2000 + 1 * r.val = t.val * 2000 + r.val; rw [e0]; omega
    | ⟨1, _⟩ => show win0_10.index t (1 : Fin 2) * 128 + 1 * f.val = f.val; rw [e1]; omega
  rw [View.read_apply, hemb]
  exact stored_eq A0 A1 A2 A3 A4 A5 A6 A7 A8 A9 _ _ _ _ _ _ _ _ _ _ r f _
    (fun d => read0_apply A0 t r d _ rfl) (fun d => read1_apply A1 t r d _ rfl) (read2_apply A2 t r 0 _ rfl)
    (read3_eq A3 t) (read4_eq A4 t) (read5_eq A5 t) (read6_eq A6 t) (read7_eq A7 t) (read8_eq A8 t) (read9_eq A9 t)

/-- The ten arrays as the kernel call finds them, pushed through the node update. -/
abbrev found (c : Dev nD) : FVec Ideal S100000x128 .f32 :=
  windowNet (V m c main_arg0) (V m c main_v4) (V m c main_v13) (V m c main_v15) (V m c main_v17) (V m c main_v20)
    (V m c main_v18) (V m c main_v21) (V m c main_v19) (V m c main_v22)

/-- WHAT POINT t WRITES BACK is rows 2000 t .. 2000 t + 1999 of the node update of every node. -/
theorem flushed_eq (c : Dev nD) (t : Fin cfg0.N) :
    (dats m 0 c).flushed 10 t = ((cfg0.win 10).blk t).view.read (Elt Ideal) (found m c) :=
  (flushed10 m c t).trans (block_of_net (V m c main_arg0) (V m c main_v4) (V m c main_v13) (V m c main_v15) (V m c main_v17)
    (V m c main_v20) (V m c main_v18) (V m c main_v21) (V m c main_v19) (V m c main_v22) t)

/-- An index is in point t's block iff its row is one of the block's 2000 rows. -/
theorem mem_blk (t : Fin cfg0.N) (i : S100000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v23).slice (win0_10.rect t)).set ↔ _
  rw [View.set_slice_whole, Rect.mem_set_unit]
  exact Iff.rfl

/-- Every index of the result array is in the block of the point its row belongs to. -/
theorem covered (i : S100000x128.Idx) :
    ∃ t : Fin cfg0.N, (cfg0.win 10).flush t = true ∧ i ∈ ((cfg0.win 10).blk t).view.set := by
  have hi0 : (i 0).val < 100000 := (i 0).isLt
  have hi1 : (i 1).val < 128 := (i 1).isLt
  refine ⟨⟨(i 0).val / 2000, by rw [show cfg0.N = 50 from N_0]; omega⟩, flush0_10 _, ?_⟩
  obtain ⟨e0, e1, -⟩ := idx_facts ⟨(i 0).val / 2000, by rw [show cfg0.N = 50 from N_0]; omega⟩
  rw [mem_blk]
  intro a
  match a with
  | ⟨0, _⟩ =>
    show win0_10.index _ (0 : Fin 2) * 2000 ≤ (i 0).val ∧ (i 0).val < win0_10.index _ (0 : Fin 2) * 2000 + 2000
    rw [e0]
    show (i 0).val / 2000 * 2000 ≤ (i 0).val ∧ (i 0).val < (i 0).val / 2000 * 2000 + 2000
    omega
  | ⟨1, _⟩ =>
    show win0_10.index _ (1 : Fin 2) * 128 ≤ (i 1).val ∧ (i 1).val < win0_10.index _ (1 : Fin 2) * 128 + 128
    rw [e1]
    omega

/-- THE RESULT ARRAY after the run is the node update of every node, of the ten arrays the kernel call found. -/
theorem final (c : Dev nD) : (dats m 0 c).arrAt 10 cfg0.N = found m c :=
  (dats m 0 c).arrAt_eq_of_cover 10 (found m c) (fun t _ => flushed_eq m c t) covered

end Cert.KernelIdeal.Blocks

end
-- ==== Proof.KernelHost.lean ====
/-
  What the kernel call receives from the operations before it, and the result array as a function of the arguments.

  Before the kernel call the program scatters the edge features and a vector of ones onto the destination nodes (the
  summed edge features and the edge counts), takes the reciprocal of the count clamped from below by one and recasts
  that vector as a column, cuts the first weight into its upper and lower 128 rows, narrows the weights to bf16 (the
  identity on the extended reals) and recasts each bias vector as a row. Read at an entry, the column holds
  1 / max (count p) 1  at (p, 0), the upper and lower halves hold W1 at rows d and 128 + d, and a bias row holds the bias
  at (0, g). The product  sums * (1 / max (count) 1)  is the mean  sums / max (count) 1  (the divisor is never zero), so the
  node update of the ten arrays the call receives is the node update Cert.NodeRows.G of the arguments.
-/
import proofs.«170694_j25134148616720_2_alg».proof.Proof.Gen.KernelIdeal.Frame
import Idealize.ShloMosaic.Lib.StableHlo.Run
import Idealize.ShloMosaic.Lib.ValueLayout
import Idealize.ShloMosaic.Lib.Pipeline.Value
import Idealize.ShloMosaic.PureOps.Ideal
import proofs.«170694_j25134148616720_2_alg».proof.Proof.KernelBlocks
import proofs.«170694_j25134148616720_2_alg».proof.Proof.LibKeepdims

noncomputable section

namespace Cert.KernelIdeal.HostSide

open Cert.KernelIdeal Cert.KernelIdeal.Gen Cert.KernelIdeal.Blocks
open Idealize.ShloMosaic Idealize.ShloMosaic.TcCoe Idealize.SL.Sem Idealize.ShloMosaic.StableHlo
open Idealize.ShloMosaic.ValueIdx Cert.NodeRows

variable (x0 : (⟨S100000x128, .f32⟩ : BufTy).Contents (Elt Ideal)) (x1 : (⟨S2x1600000, .i32⟩ : BufTy).Contents (Elt Ideal))
  (x2 : (⟨S1600000x128, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x128, .f32⟩ : BufTy).Contents (Elt Ideal))
  (x8 : (⟨S128, .f32⟩ : BufTy).Contents (Elt Ideal))

/-- The destination node of every edge, as a column: row 1 of the edge index. -/
def destCol : (⟨S1600000x1, .i32⟩ : BufTy).Contents (Elt Ideal) :=
  broadcastInDim S1600000x1 ![0] bcast_S1600000_S1600000x1_0
    (shapeCast S1600000 (extractStridedSlice S1x1600000 ![1, 0] x1 slices_S2x1600000_S1x1600000_1_0) shapeCasts_S1x1600000_S1600000)

/-- The edge features summed onto their destination nodes. -/
@[irreducible] def sumsK : FVec Ideal S100000x128 .f32 :=
  Host.scatterAdd scatter_S100000x128_S1600000x1_S1600000x128_1_0_0_1
    (broadcastInDim S100000x128 ![] bcast_S_S100000x128 (constant (F := Ideal) S_ .f32 0x00000000#32)) (destCol x1) x2

/-- The number of edges into each node: ones summed onto the destination nodes. -/
@[irreducible] def cntK : FVec Ideal S100000 .f32 :=
  Host.scatterAdd scatter_S100000_S1600000x1_S1600000_n_0_0_1
    (broadcastInDim S100000 ![] bcast_S_S100000 (constant (F := Ideal) S_ .f32 0x00000000#32)) (destCol x1)
    (broadcastInDim S1600000 ![] bcast_S_S1600000 (constant (F := Ideal) S_ .f32 0x3F800000#32))

/-- The reciprocal of the clamped count, as a column. -/
def recipK : FVec Ideal S100000x1 .f32 :=
  shapeCast S100000x1
    (Host.divf (broadcastInDim S100000 ![] bcast_S_S100000 (constant (F := Ideal) S_ .f32 0x3F800000#32))
      (maximumf (cntK x1) (broadcastInDim S100000 ![] bcast_S_S100000 (constant (F := Ideal) S_ .f32 0x3F800000#32))))
    shapeCasts_S100000_S100000x1

/-- The upper 128 rows of the first weight, narrowed. -/
def upperK : FVec Ideal S128x256 .bf16 :=
  truncf .bf16 (extractStridedSlice S128x256 ![0, 0] x3 slices_S256x256_S128x256_0_0) bitsLt_bf16_f32

/-- The lower 128 rows of the first weight, narrowed. -/
def lowerK : FVec Ideal S128x256 .bf16 :=
  truncf .bf16 (extractStridedSlice S128x256 ![128, 0] x3 slices_S256x256_S128x256_128_0) bitsLt_bf16_f32

/-- The second weight, narrowed. -/
def narrow2 : FVec Ideal S256x256 .bf16 := truncf .bf16 x5 bitsLt_bf16_f32

/-- The third weight, narrowed. -/
def narrow3 : FVec Ideal S256x128 .bf16 := truncf .bf16 x7 bitsLt_bf16_f32

/-- A rank-0 value spread over a vector reads that value everywhere. -/
theorem spread_apply (w : BitVec 32) (i : S100000.Idx) :
    broadcastInDim S100000 ![] bcast_S_S100000 (constant (F := Ideal) S_ .f32 w) i = Ideal.ofBits .f32 w :=
  broadcastInDim_apply _ bcast_S_S100000 _ i ix0 fun ax => ax.elim0

/-- For any vector of counts: entry (p, 0) of the column  1 / max (count) 1 . -/
theorem recip_col_apply (cv : FVec Ideal S100000 .f32) (p : Fin 100000) :
    shapeCast S100000x1
        (Host.divf (broadcastInDim S100000 ![] bcast_S_S100000 (constant (F := Ideal) S_ .f32 0x3F800000#32))
          (maximumf cv (broadcastInDim S100000 ![] bcast_S_S100000 (constant (F := Ideal) S_ .f32 0x3F800000#32))))
        shapeCasts_S100000_S100000x1 (ix2 p (0 : Fin 1))
      = Ideal.div oneW (max (cv (ix1 p)) oneW) := by
  rw [Cert.LibKeepdims.shapeCast_a_a1_apply _ shapeCasts_S100000_S100000x1 p 0]
  show Ideal.div (broadcastInDim S100000 ![] bcast_S_S100000 (constant (F := Ideal) S_ .f32 0x3F800000#32) (ix1 p))
    (max (cv (ix1 p)) (broadcastInDim S100000 ![] bcast_S_S100000 (constant (F := Ideal) S_ .f32 0x3F800000#32) (ix1 p))) = _
  rw [spread_apply]

/-- Entry (p, 0) of the column of reciprocals. -/
theorem recipK_apply (p : Fin 100000) :
    recipK x1 (ix2 p (0 : Fin 1)) = Ideal.div oneW (max (cntK x1 (ix1 p)) oneW) := by
  unfold recipK
  exact recip_col_apply (cntK x1) p

/-- Entry (d, g) of the upper half is W1 at row d. -/
theorem upperK_apply (d : Fin 128) (g : Fin 256) : upperK x3 (ix2 d g) = x3 (ix2 (lo d) g) := by
  unfold upperK
  rw [truncf_apply]
  exact slice2_axis0_apply 0 x3 slices_S256x256_S128x256_0_0 d g (lo d) (by show d.val = 0 + d.val; omega)

/-- Entry (d, g) of the lower half is W1 at row 128 + d. -/
theorem lowerK_apply (d : Fin 128) (g : Fin 256) : lowerK x3 (ix2 d g) = x3 (ix2 (hi d) g) := by
  unfold lowerK
  rw [truncf_apply]
  exact slice2_axis0_apply 128 x3 slices_S256x256_S128x256_128_0 d g (hi d) rfl

/-- THE NODE UPDATE OF THE TEN ARRAYS THE CALL RECEIVES is the node update of the arguments. -/
theorem windowNet_eq :
    windowNet x0 (sumsK x1 x2) (recipK x1) (upperK x3) (lowerK x3) (shapeCast S1x256 x4 shapeCasts_S256_S1x256)
        (narrow2 x5) (shapeCast S1x256 x6 shapeCasts_S256_S1x256)
        (narrow3 x7) (shapeCast S1x128 x8 shapeCasts_S128_S1x128)
      = G x0 (sumsK x1 x2) (cntK x1) x3 x4 x5 x6 x7 x8 := by
  funext i
  have hmean : ∀ d : Fin 128, sumsK x1 x2 (ix2 (i 0) d) * recipK x1 (ix2 (i 0) (0 : Fin 1))
      = mean (sumsK x1 x2 (ix2 (i 0) d)) (cntK x1 (ix1 (i 0))) := fun d => by
    rw [recipK_apply x1 (i 0)]
    exact mul_recip_count _ _
  unfold windowNet G
  simp only [upperK_apply, lowerK_apply, narrow2, narrow3, truncf_apply,
    shapeCast_a_1a_apply _ shapeCasts_S256_S1x256 (0 : Fin 1), shapeCast_a_1a_apply _ shapeCasts_S128_S1x128 (0 : Fin 1)]
  congr 1
  funext d
  exact hmean d

/-- The node update of ten arrays depends on the arrays only. -/
theorem windowNet_congr {a0 a0' a1 a1' : FVec Ideal S100000x128 .f32} {a2 a2' : FVec Ideal S100000x1 .f32}
    {a3 a3' a4 a4' : FVec Ideal S128x256 .bf16} {a5 a5' : FVec Ideal S1x256 .f32} {a6 a6' : FVec Ideal S256x256 .bf16}
    {a7 a7' : FVec Ideal S1x256 .f32} {a8 a8' : FVec Ideal S256x128 .bf16} {a9 a9' : FVec Ideal S1x128 .f32}
    (h0 : a0 = a0') (h1 : a1 = a1') (h2 : a2 = a2') (h3 : a3 = a3') (h4 : a4 = a4') (h5 : a5 = a5') (h6 : a6 = a6')
    (h7 : a7 = a7') (h8 : a8 = a8') (h9 : a9 = a9') :
    windowNet a0 a1 a2 a3 a4 a5 a6 a7 a8 a9 = windowNet a0' a1' a2' a3' a4' a5' a6' a7' a8' a9' := by
  subst h0 h1 h2 h3 h4 h5 h6 h7 h8 h9
  rfl

variable (m : (ℓ : Loc nD τ sig) → Buf (Elt Ideal) ℓ)

/-- The call's second array is the summed edge features. -/
theorem V_sums (c : Dev nD) : (V m c main_v4 : S100000x128.Idx → EReal)
    = sumsK (m ((c : Thread nD τ).loc main_arg1)) (m ((c : Thread nD τ).loc main_arg2)) := by
  unfold sumsK destCol
  dsimp only [Gen.V, Gen.hostOps0]; after_results; rfl

/-- The call's third array is the column of reciprocal counts. -/
theorem V_recip (c : Dev nD) : (V m c main_v13 : S100000x1.Idx → EReal) = recipK (m ((c : Thread nD τ).loc main_arg1)) := by
  unfold recipK cntK destCol
  dsimp only [Gen.V, Gen.hostOps0]; after_results; rfl

theorem V_upper (c : Dev nD) : (V m c main_v15 : S128x256.Idx → EReal) = upperK (m ((c : Thread nD τ).loc main_arg3)) := by
  unfold upperK
  dsimp only [Gen.V, Gen.hostOps0]; after_results

theorem V_lower (c : Dev nD) : (V m c main_v17 : S128x256.Idx → EReal) = lowerK (m ((c : Thread nD τ).loc main_arg3)) := by
  unfold lowerK
  dsimp only [Gen.V, Gen.hostOps0]; after_results

theorem V_w2 (c : Dev nD) : (V m c main_v18 : S256x256.Idx → EReal) = narrow2 (m ((c : Thread nD τ).loc main_arg5)) := by
  unfold narrow2
  dsimp only [Gen.V, Gen.hostOps0]; after_results

theorem V_w3 (c : Dev nD) : (V m c main_v19 : S256x128.Idx → EReal) = narrow3 (m ((c : Thread nD τ).loc main_arg7)) := by
  unfold narrow3
  dsimp only [Gen.V, Gen.hostOps0]; after_results

theorem V_b1 (c : Dev nD) : (V m c main_v20 : S1x256.Idx → EReal)
    = shapeCast S1x256 (m ((c : Thread nD τ).loc main_arg4) : FVec Ideal S256 .f32) shapeCasts_S256_S1x256 := by
  dsimp only [Gen.V, Gen.hostOps0]; after_results; rfl

theorem V_b2 (c : Dev nD) : (V m c main_v21 : S1x256.Idx → EReal)
    = shapeCast S1x256 (m ((c : Thread nD τ).loc main_arg6) : FVec Ideal S256 .f32) shapeCasts_S256_S1x256 := by
  dsimp only [Gen.V, Gen.hostOps0]; after_results; rfl

theorem V_b3 (c : Dev nD) : (V m c main_v22 : S1x128.Idx → EReal)
    = shapeCast S1x128 (m ((c : Thread nD τ).loc main_arg8) : FVec Ideal S128 .f32) shapeCasts_S128_S1x128 := by
  dsimp only [Gen.V, Gen.hostOps0]; after_results; rfl

/-- THE RESULT ARRAY after the run is the node update of the argument arrays. -/
theorem found_eq (c : Dev nD) :
    found m c = G (m ((c : Thread nD τ).loc main_arg0))
      (sumsK (m ((c : Thread nD τ).loc main_arg1)) (m ((c : Thread nD τ).loc main_arg2)))
      (cntK (m ((c : Thread nD τ).loc main_arg1)))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  exact (windowNet_congr (V_main_arg0 m c) (V_sums m c) (V_recip m c) (V_upper m c) (V_lower m c) (V_b1 m c) (V_w2 m c)
    (V_b2 m c) (V_w3 m c) (V_b3 m c)).trans (windowNet_eq _ _ _ _ _ _ _ _ _)

end Cert.KernelIdeal.HostSide

end
-- ==== Proof.LibConcatPair.lean ====
/-
  Two arrays laid side by side, read at an index.

  A concatenation of two pieces along an axis reads, at an index whose coordinate on that axis is `k`, the first piece at
  `k` when `k` is below the first piece's extent `a`, and otherwise the second piece at `k - a`; the other coordinates pass
  through. Stated here for the two layouts a fused pair of weight matrices and a fused pair of bias vectors have:
  matrices `[n, a]` and `[n, b]` joined along their columns into `[n, c]`, and vectors `[a]` and `[b]` joined into `[c]`.
  (`c = a + b` is part of the hypothesis `h`; the statements never need it spelt out.)
-/
import Idealize.ShloMosaic.Lib.ValueIdx
import Idealize.ShloMosaic.Lib.Pipeline.Value

namespace Idealize.ShloMosaic.ConcatPair

open Idealize.ShloMosaic Idealize.ShloMosaic.ValueIdx

variable {α : Type}

/-- Columns `[0, a)` of `[u | v]` are `u`'s. -/
theorem cols_left {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin a) (hq : q.val = k.val) :
    concatenate (⟨2, ![n, c]⟩ : Shape) 1 [⟨⟨2, ![n, a]⟩, u⟩, ⟨⟨2, ![n, b]⟩, v⟩] h (ix2 p k) = u (ix2 p q) :=
  concatenate_pair_apply_left 1 u v h (ix2 p k) rfl (ix2 p q) (fun d => by
    match d with
    | ⟨0, _⟩ => rfl
    | ⟨1, _⟩ => exact hq)

/-- Columns `[a, a + b)` of `[u | v]` are `v`'s, shifted by `a`. -/
theorem cols_right {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin b) (hq : q.val + a = k.val) :
    concatenate (⟨2, ![n, c]⟩ : Shape) 1 [⟨⟨2, ![n, a]⟩, u⟩, ⟨⟨2, ![n, b]⟩, v⟩] h (ix2 p k) = v (ix2 p q) :=
  concatenate_pair_apply_right 1 u v h (ix2 p k) rfl rfl (ix2 p q) (fun d hd => by
    match d with
    | ⟨0, _⟩ => rfl
    | ⟨1, _⟩ => exact absurd rfl hd) hq

/-- Entries `[0, a)` of the joined vector are `u`'s. -/
theorem vec_left {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin a) (hq : q.val = k.val) :
    concatenate (⟨1, ![c]⟩ : Shape) 0 [⟨⟨1, ![a]⟩, u⟩, ⟨⟨1, ![b]⟩, v⟩] h (ix1 k) = u (ix1 q) :=
  concatenate_pair_apply_left 0 u v h (ix1 k) rfl (ix1 q) (fun d => by
    match d with
    | ⟨0, _⟩ => exact hq)

/-- Entries `[a, a + b)` of the joined vector are `v`'s, shifted by `a`. -/
theorem vec_right {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin b) (hq : q.val + a = k.val) :
    concatenate (⟨1, ![c]⟩ : Shape) 0 [⟨⟨1, ![a]⟩, u⟩, ⟨⟨1, ![b]⟩, v⟩] h (ix1 k) = v (ix1 q) :=
  concatenate_pair_apply_right 0 u v h (ix1 k) rfl rfl (ix1 q) (fun d hd => by
    match d with
    | ⟨0, _⟩ => exact absurd rfl hd) hq

end Idealize.ShloMosaic.ConcatPair
-- ==== Proof.RefRows.lean ====
/-
  The reference program read at an entry: it is the node update of every node.

  The reference divides the summed edge features of node p by the count clamped from below by one, spread over the
  128 features; joins x and that mean side by side into 256 columns; and applies the three dense layers as matrix
  products with the bias spread over the rows. Entry (p, f) of each layer reads row p of the layer's input only. The
  inner product of the joined row with a column of W1 splits into the sum over the columns that come from x and the sum
  over the columns that come from the mean (Cert.NodeRows.sum_halves), which is how Cert.NodeRows.hidden1 is written.
-/
import proofs.«170694_j25134148616720_2_alg».proof.Proof.Gen.ReferenceIdeal.Read
import Idealize.ShloMosaic.Lib.ValueIdx
import Idealize.ShloMosaic.Lib.Pipeline.Value
import proofs.«170694_j25134148616720_2_alg».proof.Proof.NodeRows
import proofs.«170694_j25134148616720_2_alg».proof.Proof.LibConcatPair

noncomputable section

namespace Cert.ReferenceIdeal.Rows

open Cert.ReferenceIdeal Cert.ReferenceIdeal.Gen Cert.ReferenceIdeal.Read
open Idealize.ShloMosaic Idealize.ShloMosaic.ValueIdx Cert.NodeRows
open scoped BigOperators

variable (x0 : FVec Ideal S100000x128 .f32) (x1 : IVec S2x1600000 32) (x2 : FVec Ideal S1600000x128 .f32)
  (x3 : FVec Ideal S256x256 .f32) (x4 : FVec Ideal S256 .f32) (x5 : FVec Ideal S256x256 .f32) (x6 : FVec Ideal S256 .f32)
  (x7 : FVec Ideal S256x128 .f32) (x8 : FVec Ideal S128 .f32)

/-- The reference's mean at node p, feature d. -/
theorem mean_ref (p : Fin 100000) (d : Fin 128) :
    val_main_v13 (F := Ideal) x1 x2 (ix2 p d)
      = mean (val_main_v4 (F := Ideal) x1 x2 (ix2 p d)) (val_main_v8 (F := Ideal) x1 (ix1 p)) := by
  have e : idx_main_v11 (idx_main_v12 (ix2 p d)) = ix1 p :=
    funext fun a => Fin.ext (by match a with | ⟨0, _⟩ => rfl)
  rw [val_main_v13_apply, val_main_v12_apply, val_main_v11_apply, val_main_v10_apply, val_main_v9_apply,
    val_main_cst_2_apply, e]
  rfl

/-- Entry (p, f) of the reference's first layer. -/
theorem hidden1_ref (p : Fin 100000) (f : Fin 256) :
    val_main_v19 (F := Ideal) x0 x1 x2 x3 x4 (ix2 p f)
      = hidden1 (fun d => x0 (ix2 p d))
          (fun d => mean (val_main_v4 (F := Ideal) x1 x2 (ix2 p d)) (val_main_v8 (F := Ideal) x1 (ix1 p)))
          (fun d g => x3 (ix2 (lo d) g)) (fun d g => x3 (ix2 (hi d) g)) (fun g => x4 (ix1 g)) f := by
  have el : ∀ k, lidx_main_v15 (ix2 p f) k = ix2 p k := fun k =>
    funext fun a => Fin.ext (by match a with | ⟨0, _⟩ => rfl | ⟨1, _⟩ => rfl)
  have er : ∀ k, ridx_main_v15 (ix2 p f) k = ix2 k f := fun k =>
    funext fun a => Fin.ext (by match a with | ⟨0, _⟩ => rfl | ⟨1, _⟩ => rfl)
  have eb : idx_main_v16 (idx_main_v17 (ix2 p f)) = ix1 f :=
    funext fun a => Fin.ext (by match a with | ⟨0, _⟩ => rfl)
  have hl : ∀ d : Fin 128, val_main_v14 (F := Ideal) x0 x1 x2 (ix2 p (lo d)) = x0 (ix2 p d) := fun d => by
    unfold val_main_v14
    exact Idealize.ShloMosaic.ConcatPair.cols_left x0 (val_main_v13 (F := Ideal) x1 x2)
      concatenates_S100000x128_S100000x128_S100000x256_d1 p (lo d) d rfl
  have hr : ∀ d : Fin 128, val_main_v14 (F := Ideal) x0 x1 x2 (ix2 p (hi d))
      = mean (val_main_v4 (F := Ideal) x1 x2 (ix2 p d)) (val_main_v8 (F := Ideal) x1 (ix1 p)) := fun d => by
    unfold val_main_v14
    refine (Idealize.ShloMosaic.ConcatPair.cols_right x0 (val_main_v13 (F := Ideal) x1 x2)
      concatenates_S100000x128_S100000x128_S100000x256_d1 p (hi d) d ?_).trans (mean_ref x1 x2 p d)
    show d.val + 128 = 128 + d.val
    omega
  rw [val_main_v19_apply, val_main_v18_apply, val_main_v15_apply, val_main_v17_apply, val_main_v16_apply,
    val_main_call0_v0_apply, val_main_call0_cst_apply, eb]
  simp only [el, er]
  rw [sum_halves]
  simp only [hl, hr]
  rfl

/-- Entry (p, f) of the reference's second layer reads row p of the first layer's result. -/
theorem hidden2_ref (p : Fin 100000) (f : Fin 256) :
    val_main_v24 (F := Ideal) x0 x1 x2 x3 x4 x5 x6 (ix2 p f)
      = hidden2 (fun d => val_main_v19 (F := Ideal) x0 x1 x2 x3 x4 (ix2 p d))
          (fun d g => x5 (ix2 d g)) (fun g => x6 (ix1 g)) f := by
  have el : ∀ k, lidx_main_v20 (ix2 p f) k = ix2 p k := fun k =>
    funext fun a => Fin.ext (by match a with | ⟨0, _⟩ => rfl | ⟨1, _⟩ => rfl)
  have er : ∀ k, ridx_main_v20 (ix2 p f) k = ix2 k f := fun k =>
    funext fun a => Fin.ext (by match a with | ⟨0, _⟩ => rfl | ⟨1, _⟩ => rfl)
  have eb : idx_main_v21 (idx_main_v22 (ix2 p f)) = ix1 f :=
    funext fun a => Fin.ext (by match a with | ⟨0, _⟩ => rfl)
  rw [val_main_v24_apply, val_main_v23_apply, val_main_v20_apply, val_main_v22_apply, val_main_v21_apply,
    val_main_call1_v0_apply, val_main_call1_cst_apply, eb]
  simp only [el, er]
  rfl

/-- Entry (p, f) of the reference's result reads row p of the second layer's result. -/
theorem out_ref (p : Fin 100000) (f : Fin 128) :
    val_main_v28 (F := Ideal) x0 x1 x2 x3 x4 x5 x6 x7 x8 (ix2 p f)
      = outRow (fun d => val_main_v24 (F := Ideal) x0 x1 x2 x3 x4 x5 x6 (ix2 p d))
          (fun d g => x7 (ix2 d g)) (fun g => x8 (ix1 g)) f := by
  have el : ∀ k, lidx_main_v25 (ix2 p f) k = ix2 p k := fun k =>
    funext fun a => Fin.ext (by match a with | ⟨0, _⟩ => rfl | ⟨1, _⟩ => rfl)
  have er : ∀ k, ridx_main_v25 (ix2 p f) k = ix2 k f := fun k =>
    funext fun a => Fin.ext (by match a with | ⟨0, _⟩ => rfl | ⟨1, _⟩ => rfl)
  have eb : idx_main_v26 (idx_main_v27 (ix2 p f)) = ix1 f :=
    funext fun a => Fin.ext (by match a with | ⟨0, _⟩ => rfl)
  rw [val_main_v28_apply, val_main_v25_apply, val_main_v27_apply, val_main_v26_apply, eb]
  simp only [el, er]
  rfl

/-- THE REFERENCE'S RESULT is the node update of every node, of the argument arrays and of the two scattered sums
    (the summed edge features and the edge counts) the reference computes first. -/
theorem result_eq :
    val_main_v28 (F := Ideal) x0 x1 x2 x3 x4 x5 x6 x7 x8
      = G x0 (val_main_v4 (F := Ideal) x1 x2) (val_main_v8 (F := Ideal) x1) x3 x4 x5 x6 x7 x8 := by
  funext i
  obtain ⟨p, f, rfl⟩ : ∃ (p : Fin 100000) (f : Fin 128), i = ix2 p f := ⟨i 0, i 1, eq_ix2 i⟩
  rw [out_ref]
  unfold G net
  congr 1
  funext d
  rw [hidden2_ref]
  congr 1
  funext e
  rw [hidden1_ref]

end Cert.ReferenceIdeal.Rows

end
-- ==== Proof.lean ====
/-
  The node update of a message-passing layer: a kernel that fuses the mean, the join and three dense layers, against
  the plain array program.

  Both programs first scatter the edge features, and a vector of ones, onto the destination nodes: the summed edge
  features and the edge counts. The reference then forms the mean  sums / max (count) 1 , joins it to x into 256
  columns, and applies three dense layers (256 to 256 with a rectifier, twice, then 256 to 128). The kernel instead
  receives the reciprocal  1 / max (count) 1  as a column and the first weight cut into its upper and lower 128 rows; on
  each block of 2000 nodes it multiplies the sums by the reciprocal, adds the product of x with the upper rows to the
  product of the means with the lower rows, and applies the remaining layers.

  On the extended reals the two are one function of the arguments, entry by entry (Cert.NodeRows.G):
    * multiplying by  1 / y  is dividing by  y  for every  y  other than zero, and  max (count) 1  is never zero;
    * the inner product of the joined row [x | mean] with a column of the first weight is the sum over the first 128
      positions plus the sum over the last 128 (a finite sum split into two runs, valid in any commutative monoid);
    * narrowing to bf16 is the identity, a matrix product into a zero accumulator is the plain inner product, and the
      order of summation plays no role;
    * each entry of the result reads one node's row, so the 50 blocks of 2000 nodes the grid writes are the rows of the
      one whole-array function, and together they cover the 100000 nodes.
  No step needs the inputs to be finite, so the precondition is never opened. The three frames are the generated ones (the
  reference's is its generated run with the result dropped); the idealization rewrote nothing, so its conjunct is trivial.
-/
import proofs.«170694_j25134148616720_2_alg».proof.Defs
import proofs.«170694_j25134148616720_2_alg».proof.Proof.Gen.Kernel
import proofs.«170694_j25134148616720_2_alg».proof.Proof.Gen.Kernel.Skeleton
import proofs.«170694_j25134148616720_2_alg».proof.Proof.Gen.Kernel.Launch
import proofs.«170694_j25134148616720_2_alg».proof.Proof.Gen.Kernel.Points
import proofs.«170694_j25134148616720_2_alg».proof.Proof.Gen.Kernel.Frame
import proofs.«170694_j25134148616720_2_alg».proof.Proof.Gen.KernelIdeal
import proofs.«170694_j25134148616720_2_alg».proof.Proof.Gen.KernelIdeal.Skeleton
import proofs.«170694_j25134148616720_2_alg».proof.Proof.Gen.KernelIdeal.Launch
import proofs.«170694_j25134148616720_2_alg».proof.Proof.Gen.KernelIdeal.Points
import proofs.«170694_j25134148616720_2_alg».proof.Proof.Gen.KernelIdeal.Frame
import proofs.«170694_j25134148616720_2_alg».proof.Proof.Gen.ReferenceIdeal
import proofs.«170694_j25134148616720_2_alg».proof.Proof.Gen.Pre_finite_inputs
import proofs.«170694_j25134148616720_2_alg».proof.Proof.Gen.KernelIdeal.Value
import proofs.«170694_j25134148616720_2_alg».proof.Proof.Gen.ReferenceIdeal.Run
import proofs.«170694_j25134148616720_2_alg».proof.Proof.Gen.ReferenceIdeal.Read
import proofs.«170694_j25134148616720_2_alg».proof.Proof.KernelHost
import proofs.«170694_j25134148616720_2_alg».proof.Proof.RefRows
import Idealize.ShloMosaic.Adequacy
import Idealize.ShloMosaic.Init

noncomputable section

namespace Cert.Proof

open Idealize.ShloMosaic Idealize.ShloMosaic.TcCoe Idealize.SL.Sem

/-- The reference's summed edge features and the kernel program's are one term. -/
theorem sums_agree (x1 : (⟨Cert.KernelIdeal.S2x1600000, .i32⟩ : BufTy).Contents (Elt Ideal))
    (x2 : (⟨Cert.KernelIdeal.S1600000x128, .f32⟩ : BufTy).Contents (Elt Ideal)) :
    Cert.ReferenceIdeal.Read.val_main_v4 (F := Ideal) x1 x2 = Cert.KernelIdeal.HostSide.sumsK x1 x2 := by
  unfold Cert.ReferenceIdeal.Read.val_main_v4 Cert.ReferenceIdeal.Read.val_main_v2 Cert.ReferenceIdeal.Read.val_main_cst
    Cert.ReferenceIdeal.Read.val_main_v3 Cert.ReferenceIdeal.Read.val_main_v1 Cert.ReferenceIdeal.Read.val_main_v0
    Cert.KernelIdeal.HostSide.sumsK Cert.KernelIdeal.HostSide.destCol
  rfl

/-- The reference's edge counts and the kernel program's are one term. -/
theorem counts_agree (x1 : (⟨Cert.KernelIdeal.S2x1600000, .i32⟩ : BufTy).Contents (Elt Ideal)) :
    Cert.ReferenceIdeal.Read.val_main_v8 (F := Ideal) x1 = Cert.KernelIdeal.HostSide.cntK x1 := by
  unfold Cert.ReferenceIdeal.Read.val_main_v8 Cert.ReferenceIdeal.Read.val_main_v6 Cert.ReferenceIdeal.Read.val_main_cst_1
    Cert.ReferenceIdeal.Read.val_main_v7 Cert.ReferenceIdeal.Read.val_main_v1 Cert.ReferenceIdeal.Read.val_main_v0
    Cert.ReferenceIdeal.Read.val_main_v5 Cert.ReferenceIdeal.Read.val_main_cst_0
    Cert.KernelIdeal.HostSide.cntK Cert.KernelIdeal.HostSide.destCol
  rfl

section KernelRun

open Cert.KernelIdeal Cert.KernelIdeal.Gen Cert.KernelIdeal.HostSide

/-- The kernel program's run, read: its result array ends at the node update of the argument arrays, the arguments
    unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v23) = Cert.NodeRows.G (m ((c : Thread nD τ).loc main_arg0))
          (sumsK (m ((c : Thread nD τ).loc main_arg1)) (m ((c : Thread nD τ).loc main_arg2)))
          (cntK (m ((c : Thread nD τ).loc main_arg1)))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono
    (fun _ h c => ⟨(h c).1.trans ((Cert.KernelIdeal.Blocks.final m c).trans (found_eq m c)), (h c).2⟩)
    (Cert.KernelIdeal.Value.run_blocks m ρ)

end KernelRun

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the node update of the arguments: the kernel's by kernel_run, the reference's by its generated
    run read entry by entry (Cert.ReferenceIdeal.Rows.result_eq), from memories that agree on the arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  refine (Cert.ReferenceIdeal.Read.val_main_v28_eq (F := Ideal) _ _ _ _ _ _ _ _ _).trans ?_
  rw [Cert.ReferenceIdeal.Rows.result_eq, a0, a1, a2, a3, a4, a5, a6, a7, a8, sums_agree, counts_agree]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
